-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel

variable [Facts]

def fn {F : FTy → Type} [FloatOps F] (main_arg0 : FVec F S262144x256 .f32) (main_arg1 : FVec F S262144x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  main_v8
-- ==== Kernel.lean ====
abbrev S262144x256 : Shape := ⟨2, ![262144, 256]⟩
abbrev S16x128 : Shape := ⟨2, ![16, 128]⟩
abbrev S4096x256 : Shape := ⟨2, ![4096, 256]⟩
abbrev S8x128 : Shape := ⟨2, ![8, 128]⟩
abbrev S1x1 : Shape := ⟨2, ![1, 1]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v30 : BitVec 1 := Scalar.cmpi .eq arg1 c31_i32
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  reduces_S4096x1_S1 : S4096x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .f32 = 32 ∨ (Rect.block (s := S262144x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S262144x256 : Shape := ⟨2, ![262144, 256]⟩
abbrev S_ : Shape := ⟨0, ![]⟩
abbrev S262144 : Shape := ⟨1, ![262144]⟩
abbrev S262144x1 : Shape := ⟨2, ![262144, 1]⟩

abbrev nBuf : Space → Nat
  | .hbm => 32
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S262144, .f32⟩
  | .hbm, ⟨6, _⟩ => ⟨S262144, .f32⟩
  | .hbm, ⟨7, _⟩ => ⟨S262144x1, .f32⟩
  | .hbm, ⟨8, _⟩ => ⟨S262144x256, .f32⟩
  | .hbm, ⟨9, _⟩ => ⟨S262144x256, .f32⟩
  | .hbm, ⟨10, _⟩ => ⟨S262144x256, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S262144x256, .f32⟩
  | .hbm, ⟨15, _⟩ => ⟨S262144x256, .f32⟩
  | .hbm, ⟨16, _⟩ => ⟨S262144x256, .f32⟩
  | .hbm, ⟨17, _⟩ => ⟨S_, .f32⟩
  | .hbm, ⟨18, _⟩ => ⟨S262144, .f32⟩
  | .hbm, ⟨19, _⟩ => ⟨S_, .f32⟩
  | .hbm, ⟨20, _⟩ => ⟨S262144, .f32⟩
  | .hbm, ⟨21, _⟩ => ⟨S262144, .f32⟩
  | .hbm, ⟨22, _⟩ => ⟨S_, .f32⟩
  | .hbm, ⟨23, _⟩ => ⟨S262144, .f32⟩
  | .hbm, ⟨24, _⟩ => ⟨S262144, .f32⟩
  | .hbm, ⟨25, _⟩ => ⟨S_, .f32⟩
  | .hbm, ⟨26, _⟩ => ⟨S262144, .f32⟩
  | .hbm, ⟨27, _⟩ => ⟨S262144, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  reducesTo_S262144_S_d0 : S262144.ReducesTo [0] S_

variable [Facts₀]

class Facts : Prop extends Facts₀ where

variable [Facts]
-- ==== Proof.PointValue.lean ====
/-
  What the kernel's body leaves behind at a grid point, case by case.

  The body keeps a one-cell accumulator across the 32 points of a run. At the first point of a run it stores the reset
  value into the cell, reads it back, and stores the accumulating payload of the two input blocks and of that value.
  At every other point it stores the accumulating payload of the two blocks and of what the cell held. At the last
  point of a run it then reads the cell once more and stores the output payload of it into the output block.
  Each store covers its buffer whole, so what a buffer holds afterwards is the last store's value.
-/
import proofs.«125759_j30331059045011_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Loss.Pieces

open Cert.KernelIdeal Cert.KernelIdeal.Gen

variable {F : FTy → Type} [FloatOps F]

theorem hz : (![0, 0] : Fin 2 → Nat) = fun _ => 0 := funext fun a => by fin_cases a <;> rfl

/-- A point inside a run (neither its first nor its last): the accumulator ends at the payload of the two blocks and of
    what it held. -/
theorem sout_B (c : Dev nD) (i : grid0.Coords) (a2 : Memref sig .tc .vmem S4096x256 .f32) (h2 : a2.IsWhole)
    (a3 : Memref sig .tc .vmem S4096x256 .f32) (h3 : a3.IsWhole) (a4 : Memref sig .tc .vmem S8x128 .f32) (h4 : a4.IsWhole)
    (a5 : Memref sig .tc .vmem S1x1 .f32) (h5 : a5.IsWhole) (hc0 : ¬cond0_0 i) (hc1 : ¬cond0_1 i)
    (x0 x1 : Vec F S4096x256 .f32) (xs0 : Vec F S1x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S4096x256) hz,
    View.ld_unit_zero (S := S1x1) hz]

/-- The last point of a run: the accumulator ends the same way. -/
theorem sout_C (c : Dev nD) (i : grid0.Coords) (a2 : Memref sig .tc .vmem S4096x256 .f32) (h2 : a2.IsWhole)
    (a3 : Memref sig .tc .vmem S4096x256 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S4096x256 .f32) (xs0 : Vec F S1x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S4096x256) hz,
    View.ld_unit_zero (S := S1x1) hz]

/-- The last point of a run: the output block is the output payload of the accumulator as that point leaves it. -/
theorem out_C (c : Dev nD) (i : grid0.Coords) (a2 : Memref sig .tc .vmem S4096x256 .f32) (h2 : a2.IsWhole)
    (a3 : Memref sig .tc .vmem S4096x256 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S4096x256 .f32) (xs0 : Vec F S1x1 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1x1) _ hz]
  simp only [View.readAt_eq_ld, h2.read_unread, h3.read_unread, h5.read_unread, View.ld_unit_zero (S := S4096x256) hz,
    View.ld_unit_zero (S := S1x1) hz]

/-- The first point of a run: the accumulator is set to the reset payload, read back, and ends at the payload of the two
    blocks and of that reset value. -/
theorem sout_A (c : Dev nD) (i : grid0.Coords) (a2 : Memref sig .tc .vmem S4096x256 .f32) (h2 : a2.IsWhole)
    (a3 : Memref sig .tc .vmem S4096x256 .f32) (h3 : a3.IsWhole) (a4 : Memref sig .tc .vmem S8x128 .f32) (h4 : a4.IsWhole)
    (a5 : Memref sig .tc .vmem S1x1 .f32) (h5 : a5.IsWhole) (hc0 : cond0_0 i) (hc1 : ¬cond0_1 i)
    (x0 x1 : Vec F S4096x256 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S4096x256) hz]

end Cert.Loss.Pieces

end
-- ==== Proof.RowValue.lean ====
/-
  The mathematics of the loss, with no program in sight.

  One row of the loss. For a row of logits z and a row of weights p (256 entries each) let M be the largest logit,
  e_j = exp (z_j - M), S = ∑ e_j and D = ∑ e_j p_j. The row's value is (1 - sqrt (max (D / S) 0)) / (1/2).
  The same row written the other way round — first the softmax weights e_j / S, then t = ∑ (e_j / S) p_j, then
  (1 - t ^ (1/2)) / (1/2) — is the same number as soon as the entries are finite: then S is a positive real, the
  quotient distributes over the sum, and on the reals t ^ (1/2) = sqrt (max t 0) for every t (for t < 0 both are 0:
  the real power of a negative base carries the factor cos (π/2) = 0).

  The whole loss. The mean of the 262144 row values is taken in two ways: the sum of all rows divided by 262144;
  or the rows grouped in 64 blocks of 4096, the blocks of each half summed, each half multiplied by 2⁻¹⁸, the two
  halves added. For real row values these agree, 2⁻¹⁸ being 1/262144.
-/
import Idealize.ShloMosaic.PureOps.Ideal
import Idealize.ShloMosaic.PureOps.Ideal.Laws

noncomputable section

namespace Cert.Loss

open Idealize.ShloMosaic

/-! ## The constants the two programs spell -/

theorem ofBits_negInf : Ideal.ofBits .f32 0xFF800000#32 = ⊥ := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_invN : Ideal.ofBits .f32 0x36800000#32 = ((1 / 262144 : ℝ) : EReal) := by
  simp [Ideal.ofBits, Ideal.ieee, -EReal.coe_mul]; norm_num

theorem ofBits_N : Ideal.ofBits .f32 0x48800000#32 = ((262144 : ℝ) : EReal) := by
  simp [Ideal.ofBits, Ideal.ieee, -EReal.coe_mul]; norm_num

/-! ## Sums of reals inside the extended reals -/

/-- The inclusion of the reals in the extended reals carries finite sums to finite sums. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The inclusion of the reals in the extended reals carries the larger of two to the larger of two. -/
theorem coe_max (x y : ℝ) : max ((x : ℝ) : EReal) ((y : ℝ) : EReal) = ((max x y : ℝ) : EReal) :=
  (EReal.coe_strictMono.monotone.map_max).symm

/-! ## One row -/

/-- The largest entry of a row, found by folding max from -∞. -/
def rowMax (z : Fin 256 → EReal) : EReal :=
  (Finset.univ : Finset (Fin 256)).fold max (Ideal.ofBits .f32 0xFF800000#32) z

/-- Folding max from -∞ again over a fold that started there changes nothing. -/
theorem max_negInf_rowMax (z : Fin 256 → EReal) :
    max (Ideal.ofBits .f32 0xFF800000#32) (rowMax z) = rowMax z := by
  rw [ofBits_negInf]; exact max_eq_right bot_le

/-- The largest entry of a row of reals is a real. -/
theorem rowMax_real (z : Fin 256 → EReal) (zr : Fin 256 → ℝ) (hz : ∀ j, z j = ((zr j : ℝ) : EReal)) :
    ∃ M : ℝ, rowMax z = ((M : ℝ) : EReal) := by
  unfold rowMax
  rw [ofBits_negInf]
  have key : ∀ s : Finset (Fin 256), s.Nonempty → ∃ M : ℝ, s.fold max (⊥ : EReal) z = ((M : ℝ) : EReal) := by
    intro s hs
    induction hs using Finset.Nonempty.cons_induction with
    | singleton a => exact ⟨zr a, by rw [Finset.fold_singleton, hz a]; exact max_eq_left bot_le⟩
    | cons a s ha hs ih =>
      obtain ⟨M, hM⟩ := ih
      exact ⟨max (zr a) M, by rw [Finset.fold_cons, hM, hz a, coe_max]⟩
  exact key _ Finset.univ_nonempty

/-- The row's value, the quotient taken once, after the sums. -/
def rowK (z p : Fin 256 → EReal) : EReal :=
  Ideal.div (Ideal.ofBits .f32 0x3F800000#32 -
    Ideal.sqrt (max (Ideal.div (∑ j, Ideal.exp (z j - rowMax z) * p j) (∑ j, Ideal.exp (z j - rowMax z)))
      (Ideal.ofBits .f32 0x00000000#32))) (Ideal.ofBits .f32 0x3F000000#32)

/-- The row's value, every term divided first, and the square root taken as the power 1/2. -/
def rowR (z p : Fin 256 → EReal) : EReal :=
  Ideal.div (Ideal.ofBits .f32 0x3F800000#32 -
    Ideal.pow (Ideal.ofBits .f32 0x00000000#32 +
        ∑ j, Ideal.div (Ideal.exp (z j - rowMax z)) (Ideal.ofBits .f32 0x00000000#32 + ∑ k, Ideal.exp (z k - rowMax z)) * p j)
      (Ideal.ofBits .f32 0x3F000000#32)) (Ideal.ofBits .f32 0x3F000000#32)

/-- The same value over the reals, given the largest entry M. -/
def rowV (zr pr : Fin 256 → ℝ) (M : ℝ) : ℝ :=
  (1 - Real.sqrt (max ((∑ j, Real.exp (zr j - M) * pr j) * (1 / ∑ j, Real.exp (zr j - M))) 0)) * (1 / (1 / 2))

/-- On the reals the power 1/2 is the square root of the positive part, at every base. -/
theorem rpow_half (t : ℝ) : Real.rpow t (1 / 2) = Real.sqrt (max t 0) := by
  rw [Real.rpow_eq_pow, ← Real.sqrt_eq_rpow]
  rcases le_total 0 t with h | h
  · rw [max_eq_left h]
  · rw [max_eq_right h, Real.sqrt_eq_zero_of_nonpos h, Real.sqrt_zero]

theorem sumExp_pos (zr : Fin 256 → ℝ) (M : ℝ) : 0 < ∑ j, Real.exp (zr j - M) :=
  Finset.sum_pos (fun j _ => Real.exp_pos _) Finset.univ_nonempty

/-- A row of reals: the first form is the real value. -/
theorem rowK_real (z p : Fin 256 → EReal) (zr pr : Fin 256 → ℝ) (M : ℝ)
    (hz : ∀ j, z j = ((zr j : ℝ) : EReal)) (hp : ∀ j, p j = ((pr j : ℝ) : EReal)) (hM : rowMax z = ((M : ℝ) : EReal)) :
    rowK z p = ((rowV zr pr M : ℝ) : EReal) := by
  have hS : (∑ j, Real.exp (zr j - M)) ≠ 0 := (sumExp_pos zr M).ne'
  unfold rowK rowV
  rw [hM, ofBits_one, ofBits_half, Ideal.ofBits_zero_f32]
  have e1 : ∀ j, Ideal.exp (z j - ((M : ℝ) : EReal)) = ((Real.exp (zr j - M) : ℝ) : EReal) := fun j => by
    rw [hz j, ← EReal.coe_sub]; rfl
  simp only [e1, hp, ← EReal.coe_mul, coe_sum]
  rw [Ideal.div_coe hS, ← EReal.coe_mul, ← EReal.coe_zero, coe_max, Ideal.sqrt_coe,
    if_neg (not_lt.mpr (le_max_right _ _)), ← EReal.coe_sub, Ideal.div_coe (by norm_num), ← EReal.coe_mul]

/-- A row of reals: the second form is the same real value. -/
theorem rowR_real (z p : Fin 256 → EReal) (zr pr : Fin 256 → ℝ) (M : ℝ)
    (hz : ∀ j, z j = ((zr j : ℝ) : EReal)) (hp : ∀ j, p j = ((pr j : ℝ) : EReal)) (hM : rowMax z = ((M : ℝ) : EReal)) :
    rowR z p = ((rowV zr pr M : ℝ) : EReal) := by
  have hS : (∑ j, Real.exp (zr j - M)) ≠ 0 := (sumExp_pos zr M).ne'
  unfold rowR rowV
  rw [hM, ofBits_one, ofBits_half, Ideal.ofBits_zero_f32]
  have e1 : ∀ j, Ideal.exp (z j - ((M : ℝ) : EReal)) = ((Real.exp (zr j - M) : ℝ) : EReal) := fun j => by
    rw [hz j, ← EReal.coe_sub]; rfl
  simp only [e1, hp, zero_add, coe_sum, Ideal.div_coe hS, ← EReal.coe_mul]
  rw [Ideal.pow_coe_coe, rpow_half, ← EReal.coe_sub, Ideal.div_coe (by norm_num), ← EReal.coe_mul]
  congr 6
  rw [Finset.sum_mul]
  exact Finset.sum_congr rfl fun j _ => by ring

/-- So on finite rows the two forms agree, and their common value is a real. -/
theorem rowR_eq_rowK (z p : Fin 256 → EReal) (zr pr : Fin 256 → ℝ)
    (hz : ∀ j, z j = ((zr j : ℝ) : EReal)) (hp : ∀ j, p j = ((pr j : ℝ) : EReal)) :
    rowR z p = rowK z p ∧ ∃ v : ℝ, rowK z p = ((v : ℝ) : EReal) := by
  obtain ⟨M, hM⟩ := rowMax_real z zr hz
  exact ⟨(rowR_real z p zr pr M hz hp hM).trans (rowK_real z p zr pr M hz hp hM).symm, _, rowK_real z p zr pr M hz hp hM⟩

end Cert.Loss

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.BlockValue.lean ====
/-
  What one grid point computes, as numbers.

  A point loads a block of 4096 rows of the logits and the matching block of the weights. For each row it takes the
  largest logit, the shifted exponentials, their sum S and their weighted sum D, and the row's value
  (1 - sqrt (max (D / S) 0)) / (1/2): the function rowK of the row. It adds the 4096 row values to the running
  total it finds in its one-cell accumulator. At the first point of a run of 32 the accumulator is first set to 0;
  at the last point of the run the total, multiplied by 2⁻¹⁸, is copied into every cell of an 8 × 128 block.
-/
import proofs.«125759_j30331059045011_2_alg».proof.Proof.Gen.KernelIdeal.Skeleton
import proofs.«125759_j30331059045011_2_alg».proof.Proof.RowValue
import proofs.«125759_j30331059045011_2_alg».proof.Proof.LibColumn
import Idealize.ShloMosaic.Lib.ValueIdx
import Idealize.ShloMosaic.Lib.Pipeline.Value
import Idealize.ShloMosaic.PureOps.Ideal.Laws

noncomputable section

namespace Cert.Loss.Block

open Idealize.ShloMosaic Idealize.ShloMosaic.ValueIdx Cert.KernelIdeal Cert.KernelIdeal.Gen Cert.Loss

/-- The sum of the row values of a block of 4096 rows. -/
def blockSum (x0 x1 : Vec Ideal S4096x256 .f32) : EReal :=
  ∑ r : Fin 4096, rowK (fun j => x0 (ix2 r j)) (fun j => x1 (ix2 r j))

theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl

/-- The sum over the 256 columns of a block, at row r. -/
theorem sumCols (x : FVec Ideal S4096x256 .f32) (r : Fin 4096) (hφ : FTy.f32 = FTy.f32 ∨ FTy.f32 = FTy.bf16)
    (hacc : (0x00000000#32 : BitVec 32) = 0x00000000#32) :
    multiReduction .add [1] S4096 x 0x00000000#32 Gen.reduces_S4096x256_S4096 hφ hacc (ix1 r)
      = ∑ j : Fin 256, x (ix2 r j) := by
  refine (Ideal.multiReduction_add_single x _ Gen.reduces_S4096x256_S4096 hφ hacc (ix1 r)).trans ?_
  exact Finset.sum_congr rfl fun j _ => congrArg x (funext fun a => Fin.ext (by match a with | ⟨0, _⟩ => rfl | ⟨1, _⟩ => rfl))

/-- The largest of the 256 columns of a block, at row r. -/
theorem maxCols (x : FVec Ideal S4096x256 .f32) (r : Fin 4096) (hφ : FTy.f32 = FTy.f32 ∨ FTy.f32 = FTy.bf16)
    (hacc : (0xFF800000#32 : BitVec 32) = 0xFF800000#32) :
    multiReduction .maximumf [1] S4096 x 0xFF800000#32 Gen.reduces_S4096x256_S4096 hφ hacc (ix1 r)
      = rowMax (fun j => x (ix2 r j)) := by
  refine (Ideal.multiReduction_maximumf_single x _ Gen.reduces_S4096x256_S4096 hφ hacc (ix1 r)).trans ?_
  unfold rowMax
  refine congrArg (fun f : Fin 256 → EReal => (Finset.univ : Finset (Fin 256)).fold max (Ideal.ofBits .f32 0xFF800000#32) f) ?_
  exact funext fun j => congrArg x (funext fun a => Fin.ext (by match a with | ⟨0, _⟩ => rfl | ⟨1, _⟩ => rfl))

/-- The sum over the 4096 rows of a one-column array. -/
theorem sumRows (x : FVec Ideal S4096x1 .f32) (u : Fin 1) (hφ : FTy.f32 = FTy.f32 ∨ FTy.f32 = FTy.bf16)
    (hacc : (0x00000000#32 : BitVec 32) = 0x00000000#32) :
    multiReduction .add [0] S1 x 0x00000000#32 Gen.reduces_S4096x1_S1 hφ hacc (ix1 u)
      = ∑ r : Fin 4096, x (ix2 r u) := by
  refine (Ideal.multiReduction_add_single x _ Gen.reduces_S4096x1_S1 hφ hacc (ix1 u)).trans ?_
  exact Finset.sum_congr rfl fun j _ => congrArg x (funext fun a => Fin.ext (by match a with | ⟨0, _⟩ => rfl | ⟨1, _⟩ => rfl))

/-- The accumulator after a point: what it held plus the block's sum. -/
theorem pay2_eq (x0 x1 : Vec Ideal S4096x256 .f32) (xs : Vec Ideal S1x1 .f32) :
    k0_pay2 (F := Ideal) x0 x1 xs = fun i => xs i + blockSum x0 x1 := by
  funext i
  obtain ⟨u, v, rfl⟩ : ∃ (u : Fin 1) (v : Fin 1), i = ix2 u v := ⟨i 0, i 1, eq_ix2 i⟩
  unfold k0_pay2
  simp only [shapeCast_self, addf_apply, Cert.LibColumn.shapeCast_a_a1_apply]
  rw [sumRows]
  unfold blockSum
  refine congrArg (xs (ix2 u v) + ·) (Finset.sum_congr rfl fun r _ => ?_)
  simp only [divf_apply, subf_apply, maximumf_apply, broadcast_apply, sqrt_apply, Cert.LibColumn.shapeCast_a_a1_apply]
  rw [sumCols, sumCols]
  simp only [mulf_apply, exp_apply, subf_apply, Cert.LibColumn.broadcastTo_a1_ab_apply, Cert.LibColumn.shapeCast_a_a1_apply]
  rw [maxCols]
  rfl

/-- The accumulator's reset value: zero. -/
theorem pay1_eq : k0_pay1 (F := Ideal) = fun _ => 0 := by
  funext i
  unfold k0_pay1
  simp only [shapeCast_self, broadcast_apply]
  exact Ideal.ofBits_zero_f32

/-- The block written at the end of a run of points: the accumulator's one cell times 2⁻¹⁸, in every cell. -/
theorem pay3_eq (v : Vec Ideal S1x1 .f32) :
    k0_pay3 (F := Ideal) v = fun _ => v (ix2 (0 : Fin 1) (0 : Fin 1)) * Ideal.ofBits .f32 0x36800000#32 := by
  funext i
  obtain ⟨p, q, rfl⟩ : ∃ (p : Fin 8) (q : Fin 128), i = ix2 p q := ⟨i 0, i 1, eq_ix2 i⟩
  unfold k0_pay3
  refine (broadcastTo_apply _ Gen.broadcasts_S1x1_S8x128 (ix2 p q) (ix2 (0 : Fin 1) (0 : Fin 1)) fun ax => ?_).trans ?_
  · match ax with
    | ⟨0, _⟩ => rfl
    | ⟨1, _⟩ => rfl
  · simp only [shapeCast_self, mulf_apply, broadcast_apply]
    rfl

end Cert.Loss.Block

end
-- ==== Proof.GridValue.lean ====
/-
  The accumulator along the grid.

  The 64 grid points are walked in order; they fall into two runs of 32 (points 0..31 and 32..63). Write b(s) for the
  sum of the 4096 row values of the blocks loaded at point s. Within a run the one-cell accumulator is reset at the
  run's first point and then grows by b(s) at every point, so after point n it holds the sum of b(s) over the points
  s of n's run up to n (by induction on n; addition of extended reals is associative and 0 is its unit, so no
  finiteness is needed here). At the last point of a run the output block receives that sum times 2⁻¹⁸ in every cell.
-/
import proofs.«125759_j30331059045011_2_alg».proof.Proof.PointValue
import proofs.«125759_j30331059045011_2_alg».proof.Proof.BlockValue

noncomputable section

open Idealize.ShloMosaic Idealize.ShloMosaic.TcCoe Idealize.SL.Sem Idealize.ShloMosaic.ValueIdx

namespace Cert.Loss.Grid

open Cert.KernelIdeal Cert.KernelIdeal.Gen Cert.Loss Cert.Loss.Block Cert.Loss.Pieces

variable (m : (ℓ : Loc nD τ sig) → Buf (Elt Ideal) ℓ)

/-- The sum of the row values of the two blocks loaded at point t. -/
def ptSum (c : Dev nD) (t : Fin cfg0.N) : EReal := blockSum (iblk m c 0 t) (iblk m c 1 t)

/-- The same, indexed by a natural number (0 past the grid). -/
def ptSumN (c : Dev nD) (n : ℕ) : EReal := if h : n < cfg0.N then ptSum m c ⟨n, h⟩ else 0

theorem ptSumN_of_lt (c : Dev nD) (n : ℕ) (h : n < cfg0.N) : ptSumN m c n = ptSum m c ⟨n, h⟩ := dif_pos h

/-- First point of a run: the accumulator ends at the block's sum. -/
theorem acc_A (c : Dev nD) (t : Fin cfg0.N) (h0 : t.val % 32 = 0) (h1 : ¬t.val % 32 = 31) :
    (outsAt0 m c t.val t.isLt).2 = fun _ => ptSum m c t := by
  rw [outsAt0_A m c t h0 h1]
  dsimp only
  refine (sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)).trans ?_
  refine (pay2_eq (iblk m c 0 t) (iblk m c 1 t) (k0_pay1 (F := Ideal))).trans ?_
  funext i
  rw [pay1_eq, zero_add]
  rfl

/-- A later point of a run that is not its last: the accumulator grows by the block's sum. -/
theorem acc_B (c : Dev nD) (t : Fin cfg0.N) (h0 : ¬t.val % 32 = 0) (h1 : ¬t.val % 32 = 31) :
    (outsAt0 m c t.val t.isLt).2
      = fun i => (outsAt0 m c (t.val - 1) (Nat.lt_of_le_of_lt (Nat.sub_le _ _) t.isLt)).2 i + ptSum m c t := by
  rw [outsAt0_B m c t h0 h1]
  dsimp only
  refine (sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) _).trans ?_
  exact pay2_eq (iblk m c 0 t) (iblk m c 1 t) _

/-- The last point of a run: the accumulator grows the same way, -/
theorem acc_C (c : Dev nD) (t : Fin cfg0.N) (h0 : ¬t.val % 32 = 0) (h1 : t.val % 32 = 31) :
    (outsAt0 m c t.val t.isLt).2
      = fun i => (outsAt0 m c (t.val - 1) (Nat.lt_of_le_of_lt (Nat.sub_le _ _) t.isLt)).2 i + ptSum m c t := by
  rw [outsAt0_C m c t h0 h1]
  dsimp only
  refine (sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).trans ?_
  exact pay2_eq (iblk m c 0 t) (iblk m c 1 t) _

/-- and the output block is the output payload of the accumulator as that point leaves it. -/
theorem out_last (c : Dev nD) (t : Fin cfg0.N) (h0 : ¬t.val % 32 = 0) (h1 : t.val % 32 = 31) :
    (outsAt0 m c t.val t.isLt).1 = k0_pay3 (outsAt0 m c t.val t.isLt).2 := by
  rw [outsAt0_C m c t h0 h1]
  dsimp only
  refine (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).trans ?_
  exact congrArg k0_pay3 (sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) _).symm

/-- After point n the accumulator holds the sum of the block sums of n's run up to n. -/
theorem acc_eq (c : Dev nD) : ∀ (n : ℕ) (h : n < cfg0.N),
    (outsAt0 m c n h).2 = fun _ => ∑ s ∈ Finset.Ico (32 * (n / 32)) (n + 1), ptSumN m c s
  | 0, h => by
    rw [acc_A m c ⟨0, h⟩ rfl (by dsimp only; omega)]
    funext i
    rw [show 32 * (0 / 32) = 0 from rfl, Nat.Ico_succ_singleton, Finset.sum_singleton, ptSumN_of_lt m c 0 h]
  | n + 1, h => by
    have hN : cfg0.N = 64 := N_0
    by_cases h0 : (n + 1) % 32 = 0
    · rw [acc_A m c ⟨n + 1, h⟩ h0 (by dsimp only; omega)]
      funext i
      rw [show 32 * ((n + 1) / 32) = n + 1 from by omega, Nat.Ico_succ_singleton, Finset.sum_singleton,
        ptSumN_of_lt m c (n + 1) h]
    · have step : (outsAt0 m c (n + 1) h).2
          = fun i => (outsAt0 m c n (Nat.lt_of_succ_lt h)).2 i + ptSum m c ⟨n + 1, h⟩ := by
        by_cases h1 : (n + 1) % 32 = 31
        · exact acc_C m c ⟨n + 1, h⟩ h0 h1
        · exact acc_B m c ⟨n + 1, h⟩ h0 h1
      rw [step, acc_eq c n (Nat.lt_of_succ_lt h)]
      funext i
      rw [show 32 * ((n + 1) / 32) = 32 * (n / 32) from by omega,
        Finset.sum_Ico_succ_top (show 32 * (n / 32) ≤ n + 1 from by omega), ptSumN_of_lt m c (n + 1) h]

/-- At the last point of a run the output block holds, in every cell, the run's total times 2⁻¹⁸. -/
theorem out_eq (c : Dev nD) (t : Fin cfg0.N) (h1 : t.val % 32 = 31) :
    (outsAt0 m c t.val t.isLt).1
      = fun _ => (∑ s ∈ Finset.Ico (32 * (t.val / 32)) (t.val + 1), ptSumN m c s) * Ideal.ofBits .f32 0x36800000#32 := by
  rw [out_last m c t (by omega) h1, acc_eq m c t.val t.isLt, pay3_eq]

end Cert.Loss.Grid

end
-- ==== Proof.KernelArray.lean ====
/-
  The kernel's arrays.

  The grid has 2 × 32 = 64 points; point t reads rows 4096·t … 4096·t + 4095 of both arguments (the index map
  32·c + i of the point (c, i) is the point's own number t). The 16 × 128 result is written back twice, after the
  points 31 and 63, each time one block of 8 rows, every entry the same number: rows 0 … 7 hold the value of the
  first half, rows 8 … 15 that of the second. After the grid the program takes entry (0, 0) and entry (8, 0) of
  the result and adds them.
-/
import proofs.«125759_j30331059045011_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.Loss.Arr

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-! ## The blocks of the two arguments -/

/-- The block index of both input windows at point t is (t, 0): decided over the 64 points. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

theorem iblk0_apply (c : Dev nD) (t : Fin cfg0.N) (r : Fin 4096) (j : Fin 256) (h : t.val * 4096 + r.val < 262144) :
    iblk m c 0 t (ix2 r j) = m ((c : Thread nD τ).loc main_arg0) (ix2 ⟨t.val * 4096 + r.val, h⟩ j) := by
  obtain ⟨e0, e1, -, -⟩ := idx_in t
  unfold iblk
  rw [View.read_apply]
  show V m c main_arg0 _ = _
  rw [V_main_arg0]
  refine congrArg _ (funext fun a => Fin.ext ?_)
  match a with
  | ⟨0, _⟩ => show win0_0.index t (0 : Fin 2) * 4096 + 1 * r.val = t.val * 4096 + r.val; rw [e0]; omega
  | ⟨1, _⟩ => show win0_0.index t (1 : Fin 2) * 256 + 1 * j.val = j.val; rw [e1]; omega

theorem iblk1_apply (c : Dev nD) (t : Fin cfg0.N) (r : Fin 4096) (j : Fin 256) (h : t.val * 4096 + r.val < 262144) :
    iblk m c 1 t (ix2 r j) = m ((c : Thread nD τ).loc main_arg1) (ix2 ⟨t.val * 4096 + r.val, h⟩ j) := by
  obtain ⟨-, -, e0, e1⟩ := idx_in t
  unfold iblk
  rw [View.read_apply]
  show V m c main_arg1 _ = _
  rw [V_main_arg1]
  refine congrArg _ (funext fun a => Fin.ext ?_)
  match a with
  | ⟨0, _⟩ => show win0_1.index t (0 : Fin 2) * 4096 + 1 * r.val = t.val * 4096 + r.val; rw [e0]; omega
  | ⟨1, _⟩ => show win0_1.index t (1 : Fin 2) * 256 + 1 * j.val = j.val; rw [e1]; omega

/-! ## The result array -/

/-- The block index of the output window at point t is (t / 32, 0): decided over the 64 points. -/
theorem idx_out : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- An index of the result is in point t's block iff each coordinate is in the block's range on its axis. -/
theorem mem_blk (t : Fin cfg0.N) (i : S16x128.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v0).slice (win0_2.rect t)).set ↔ _
  rw [View.set_slice_whole, Rect.mem_set_unit]
  exact Iff.rfl

/-- Every index of the result is in the block of a point that writes back: row i₀ in that of point 32·(i₀ / 8) + 31. -/
theorem cover (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 64 := N_0
  have ht : 32 * ((i 0).val / 8) + 31 < cfg0.N := by rw [hN]; omega
  obtain ⟨e0, e1⟩ := idx_out ⟨32 * ((i 0).val / 8) + 31, ht⟩
  refine ⟨⟨32 * ((i 0).val / 8) + 31, ht⟩, (flush0_2 _).mpr (by show (32 * ((i 0).val / 8) + 31) % 32 = 31; omega), ?_⟩
  rw [mem_blk]
  intro a
  match a with
  | ⟨0, _⟩ =>
    show win0_2.index ⟨32 * ((i 0).val / 8) + 31, ht⟩ (0 : Fin 2) * 8 ≤ (i 0).val
      ∧ (i 0).val < win0_2.index ⟨32 * ((i 0).val / 8) + 31, ht⟩ (0 : Fin 2) * 8 + 8
    rw [e0]; dsimp only; omega
  | ⟨1, _⟩ =>
    show win0_2.index ⟨32 * ((i 0).val / 8) + 31, ht⟩ (1 : Fin 2) * 128 ≤ (i 1).val
      ∧ (i 1).val < win0_2.index ⟨32 * ((i 0).val / 8) + 31, ht⟩ (1 : Fin 2) * 128 + 128
    rw [e1]; omega

theorem final_array (c : Dev nD) (G : ℕ → EReal)
    (hG : ∀ t : Fin cfg0.N, t.val % 32 = 31 → (outsAt0 m c t.val t.isLt).1 = fun _ => G t.val) :
    (dats m 0 c).arrAt 2 cfg0.N = fun i : S16x128.Idx => G (32 * ((i 0).val / 8) + 31) := by
  refine (dats m 0 c).arrAt_eq_of_cover 2 (fun i : S16x128.Idx => G (32 * ((i 0).val / 8) + 31)) (fun t hf => ?_) cover
  have h31 : t.val % 32 = 31 := (flush0_2 t).mp hf
  obtain ⟨e0, -⟩ := idx_out t
  show (cfg0.win 2).cut (grid0.coords t) ((dats m 0 c).after 2 t) = _
  rw [after0_2, hG t h31]
  funext y
  have hy : (y 0).val < 8 := (y 0).isLt
  show G t.val = G (32 * ((win0_2.index t (0 : Fin 2) * 8 + 1 * (y 0).val) / 8) + 31)
  rw [e0]
  congr 1
  omega

/-! ## The lines after the grid -/

/-- The reshape of a 1 × 1 array to a scalar reads its one entry. -/
theorem cast_scalar (x : S1x1.Idx → EReal) (h : S1x1.ShapeCasts S_) (i : S_.Idx) :
    shapeCast S_ x h i = x (ix2 (0 : Fin 1) (0 : Fin 1)) :=
  shapeCast_apply x h i _ (by
    have h1 : (S1x1.rowMajor (ix2 (0 : Fin 1) (0 : Fin 1))).val < 1 := lt_of_lt_of_eq (Fin.isLt _) (by decide)
    have h2 : (S_.rowMajor i).val < 1 := lt_of_lt_of_eq (Fin.isLt _) (by decide)
    omega)

/-- The 1 × 1 slice of the result at row r, column 0 reads entry (r, 0). -/
theorem slice_at (off0 : Nat) (x : S16x128.Idx → EReal) (r : Fin 16) (hr : r.val = off0)
    (h : S16x128.Slices ![off0, 0] S1x1) :
    extractStridedSlice S1x1 ![off0, 0] x h (ix2 (0 : Fin 1) (0 : Fin 1)) = x (ix2 r (0 : Fin 128)) :=
  extractStridedSlice_apply _ x h _ _ (fun a => by
    match a with
    | ⟨0, _⟩ => show r.val = off0 + 0; omega
    | ⟨1, _⟩ => rfl)

/-- The result array after the grid, as a 16 × 128 array of extended reals. -/
abbrev arr (c : Dev nD) : S16x128.Idx → EReal := (dats m 0 c).arrAt 2 cfg0.N

/-- What the lines after the grid leave in the scalar result: entry (0, 0) plus entry (8, 0) of the result array. -/
theorem tail_v5 (c : Dev nD) :
    Pipeline.afterTail₀ cfgs (dats m) 0 (V0 m) [hostOps1] c main_v5
      = fun _ => arr m c (ix2 (0 : Fin 16) (0 : Fin 128)) + arr m c (ix2 (8 : Fin 16) (0 : Fin 128)) := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.devRef .tc main_v0)
      = arr m c :=
    Pipeline.withArrays_arr (cfgs 0).spec launch0.win.arr_inj c _ _ 2
  rw [hA]
  funext i
  exact congrArg₂ (fun a b : EReal => a + b)
    ((cast_scalar _ _ i).trans (slice_at 0 _ 0 rfl _))
    ((cast_scalar _ _ i).trans (slice_at 8 _ 8 rfl _))

/-- The two entries the lines after the grid read: the value written back after point 31 and the one after point 63. -/
theorem arr_rows (c : Dev nD) (G : ℕ → EReal)
    (hG : ∀ t : Fin cfg0.N, t.val % 32 = 31 → (outsAt0 m c t.val t.isLt).1 = fun _ => G t.val) :
    arr m c (ix2 (0 : Fin 16) (0 : Fin 128)) = G 31 ∧ arr m c (ix2 (8 : Fin 16) (0 : Fin 128)) = G 63 :=
  ⟨(congrFun (final_array m c G hG) (ix2 (0 : Fin 16) (0 : Fin 128))).trans rfl,
   (congrFun (final_array m c G hG) (ix2 (8 : Fin 16) (0 : Fin 128))).trans rfl⟩

theorem run (R : Dev nD → EReal)
    (hR : ∀ c, arr m c (ix2 (0 : Fin 16) (0 : Fin 128)) + arr m c (ix2 (8 : Fin 16) (0 : Fin 128)) = R c) :
    θ_run defs (onTc (τ := τ) (main (F := Ideal))) ⟨m, fun _ => 0, ρ⟩ (fun r => ∀ c : Dev nD,
      r.2.mem ((c.tc : Thread nD τ).loc main_v5) = (fun _ => R c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v5 (Pipeline.mem_restRefs_of main_v5 rfl (by decide))).trans
        ((tail_v5 m c).trans (funext fun _ => hR c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Loss.Arr

end
-- ==== Proof.MeanValue.lean ====
/-
  The mean of the 262144 row values, taken in two ways.

  The rows come in 64 blocks of 4096: row r of block s is row 4096 s + r. One way sums all rows and divides by
  262144. The other sums each block, adds the first 32 block sums and multiplies by 2⁻¹⁸, does the same with the last
  32, and adds the two products. For real row values the two agree: 2⁻¹⁸ is 1/262144, the product distributes over the
  sum of two reals, and a sum over all rows is the sum over the blocks of the sums over each block's rows.
-/
import proofs.«125759_j30331059045011_2_alg».proof.Proof.RowValue

noncomputable section

namespace Cert.Loss

open Idealize.ShloMosaic

/-- Row r of block s among all rows. -/
def blkRow (s : Fin 64) (r : Fin 4096) : Fin 262144 :=
  ⟨s.val * 4096 + r.val, by have := s.isLt; have := r.isLt; omega⟩

/-- A sum over all rows is the sum over the blocks of the sums over a block's rows. -/
theorem sum_rows (V : Fin 262144 → ℝ) : ∑ n, V n = ∑ s : Fin 64, ∑ r : Fin 4096, V (blkRow s r) := by
  rw [← Fintype.sum_prod_type']
  refine (Fintype.sum_equiv (finProdFinEquiv (m := 64) (n := 4096)) (fun x => V (blkRow x.1 x.2)) V fun x => ?_).symm
  refine congrArg V (Fin.ext ?_)
  show x.1.val * 4096 + x.2.val = x.2.val + 4096 * x.1.val
  omega

/-- The two ways of taking the mean agree on real row values. -/
theorem mean_eq (V : Fin 262144 → ℝ) (B : ℕ → EReal)
    (hB : ∀ (s : ℕ) (h : s < 64), B s = ∑ r : Fin 4096, ((V (blkRow ⟨s, h⟩ r) : ℝ) : EReal)) :
    (∑ s ∈ Finset.Ico 0 32, B s) * Ideal.ofBits .f32 0x36800000#32
        + (∑ s ∈ Finset.Ico 32 64, B s) * Ideal.ofBits .f32 0x36800000#32
      = Ideal.div (Ideal.ofBits .f32 0x00000000#32 + ∑ n : Fin 262144, ((V n : ℝ) : EReal))
          (Ideal.ofBits .f32 0x48800000#32) := by
  let b : ℕ → ℝ := fun s => if h : s < 64 then ∑ r : Fin 4096, V (blkRow ⟨s, h⟩ r) else 0
  have hb : ∀ s, s < 64 → B s = ((b s : ℝ) : EReal) := fun s h => by
    rw [hB s h, coe_sum]; simp only [b, dif_pos h]
  have h1 : ∑ s ∈ Finset.Ico 0 32, B s = ((∑ s ∈ Finset.Ico 0 32, b s : ℝ) : EReal) := by
    rw [← coe_sum]
    exact Finset.sum_congr rfl fun s hs => hb s (by have := (Finset.mem_Ico.mp hs).2; omega)
  have h2 : ∑ s ∈ Finset.Ico 32 64, B s = ((∑ s ∈ Finset.Ico 32 64, b s : ℝ) : EReal) := by
    rw [← coe_sum]
    exact Finset.sum_congr rfl fun s hs => hb s (Finset.mem_Ico.mp hs).2
  have key : ∀ (S : ℝ), S = (∑ s ∈ Finset.Ico 0 32, b s) + (∑ s ∈ Finset.Ico 32 64, b s) →
      ((∑ s ∈ Finset.Ico 0 32, b s : ℝ) : EReal) * ((1 / 262144 : ℝ) : EReal)
        + ((∑ s ∈ Finset.Ico 32 64, b s : ℝ) : EReal) * ((1 / 262144 : ℝ) : EReal)
        = Ideal.div ((S : ℝ) : EReal) ((262144 : ℝ) : EReal) := by
    intro S hS
    rw [Ideal.div_coe (by norm_num), ← EReal.coe_mul, ← EReal.coe_mul, ← EReal.coe_add, ← EReal.coe_mul, ← add_mul, hS]
  rw [h1, h2, ofBits_invN, ofBits_N, Ideal.ofBits_zero_f32, zero_add, coe_sum]
  refine key _ ?_
  rw [sum_rows V, Finset.sum_Ico_consecutive b (by norm_num) (by norm_num), ← Finset.range_eq_Ico,
    ← Fin.sum_univ_eq_sum_range]
  exact Finset.sum_congr rfl fun s _ => by simp only [b, dif_pos s.isLt]

end Cert.Loss

end
-- ==== Proof.RefValue.lean ====
/-
  The reference, row by row.

  For each of the 262144 rows the reference takes the largest logit M (a fold of max from -∞, then once more max with
  -∞), the exponentials e_j = exp (z_j - M), their sum S started from 0, the softmax weights e_j / S, the weighted sum
  t = 0 + ∑ (e_j / S) p_j, and the row's value (1 - t ^ (1/2)) / (1/2). Its result is 0 plus the sum of the row values,
  divided by 262144. Read at an index, each operation is the extended reals' operation on the operands at that index,
  so the row's value is the closed form rowR of the row's entries and the result is the mean of these.
-/
import proofs.«125759_j30331059045011_2_alg».proof.Proof.Gen.ReferenceIdeal.Read
import proofs.«125759_j30331059045011_2_alg».proof.Proof.RowValue
import Idealize.ShloMosaic.Lib.ValueIdx

noncomputable section

namespace Cert.Loss.Ref

open Idealize.ShloMosaic Idealize.ShloMosaic.ValueIdx Cert.ReferenceIdeal Cert.Loss
open Cert.ReferenceIdeal.Gen Cert.ReferenceIdeal.Read

/-! ## The indices the layout operations read at, by coordinates -/

theorem idx_v3 (n : Fin 262144) : idx_main_v3 (ix2 n (0 : Fin 1)) = ix1 n :=
  funext fun a => Fin.ext (by match a with | ⟨0, _⟩ => rfl)

theorem idx_v4 (n : Fin 262144) (j : Fin 256) : idx_main_v4 (ix2 n j) = ix2 n (0 : Fin 1) :=
  funext fun a => Fin.ext (by match a with | ⟨0, _⟩ => rfl | ⟨1, _⟩ => rfl)

theorem idx_v8 (n : Fin 262144) : idx_main_v8 (ix2 n (0 : Fin 1)) = ix1 n :=
  funext fun a => Fin.ext (by match a with | ⟨0, _⟩ => rfl)

theorem idx_v9 (n : Fin 262144) (j : Fin 256) : idx_main_v9 (ix2 n j) = ix2 n (0 : Fin 1) :=
  funext fun a => Fin.ext (by match a with | ⟨0, _⟩ => rfl | ⟨1, _⟩ => rfl)

theorem idx_v7 (n : Fin 262144) (k : Fin 256) : idx_main_v7 (ix1 n) k = ix2 n k :=
  funext fun a => Fin.ext (by match a with | ⟨0, _⟩ => rfl | ⟨1, _⟩ => rfl)

theorem idx_v12 (n : Fin 262144) (k : Fin 256) : idx_main_v12 (ix1 n) k = ix2 n k :=
  funext fun a => Fin.ext (by match a with | ⟨0, _⟩ => rfl | ⟨1, _⟩ => rfl)

/-! ## One row -/

/-- The row maximum the reference folds is the row's largest entry. -/
theorem v0_eq (Z : FVec Ideal S262144x256 .f32) (n : Fin 262144) :
    val_main_v0 (F := Ideal) Z (ix1 n) = rowMax (fun j => Z (ix2 n j)) := by
  unfold Read.val_main_v0 rowMax
  have hR : S262144x256.Reduces [1] S262144 := by decide
  refine (Host.reduce_eq_fold_single FloatOps.maximumf Z _ reducesTo_S262144x256_S262144_d1 hR h_S_ (ix1 n)).trans ?_
  have hl : (Z ∘ hR.lift (ix1 n)) = fun j : Fin 256 => Z (ix2 n j) :=
    funext fun k => congrArg Z (funext fun a => Fin.ext (by match a with | ⟨0, _⟩ => rfl | ⟨1, _⟩ => rfl))
  rw [hl]
  rfl

/-- Taking the maximum with -∞ once more leaves the row's largest entry. -/
theorem v2_eq (Z : FVec Ideal S262144x256 .f32) (n : Fin 262144) :
    val_main_v2 (F := Ideal) Z (ix1 n) = rowMax (fun j => Z (ix2 n j)) := by
  rw [val_main_v2_apply, val_main_v1_apply, val_main_cst_0_apply, v0_eq]
  exact max_negInf_rowMax _

/-- The exponentials of the row, shifted by its largest entry. -/
theorem v6_eq (Z : FVec Ideal S262144x256 .f32) (n : Fin 262144) (j : Fin 256) :
    val_main_v6 (F := Ideal) Z (ix2 n j) = Ideal.exp (Z (ix2 n j) - rowMax (fun k => Z (ix2 n k))) := by
  rw [val_main_v6_apply, val_main_v5_apply, val_main_v4_apply, idx_v4, val_main_v3_apply, idx_v3, v2_eq]
  rfl

/-- Their sum, started from 0. -/
theorem v7_eq (Z : FVec Ideal S262144x256 .f32) (n : Fin 262144) :
    val_main_v7 (F := Ideal) Z (ix1 n)
      = Ideal.ofBits .f32 0x00000000#32 + ∑ k : Fin 256, Ideal.exp (Z (ix2 n k) - rowMax (fun k => Z (ix2 n k))) := by
  rw [val_main_v7_apply, val_main_cst_1_apply]
  refine congrArg (_ + ·) (Finset.sum_congr rfl fun k _ => ?_)
  rw [idx_v7, v6_eq]

/-- One softmax weight times the row's weight p. -/
theorem v11_eq (Z P : FVec Ideal S262144x256 .f32) (n : Fin 262144) (j : Fin 256) :
    val_main_v11 (F := Ideal) Z P (ix2 n j)
      = Ideal.div (Ideal.exp (Z (ix2 n j) - rowMax (fun k => Z (ix2 n k))))
          (Ideal.ofBits .f32 0x00000000#32 + ∑ k : Fin 256, Ideal.exp (Z (ix2 n k) - rowMax (fun k => Z (ix2 n k))))
        * P (ix2 n j) := by
  rw [val_main_v11_apply, val_main_v10_apply, val_main_v9_apply, idx_v9, val_main_v8_apply, idx_v8, v7_eq, v6_eq]
  rfl

/-- The row's value as the reference computes it is the closed form. -/
theorem row_eq (Z P : FVec Ideal S262144x256 .f32) (n : Fin 262144) :
    val_main_v18 (F := Ideal) Z P (ix1 n) = rowR (fun j => Z (ix2 n j)) (fun j => P (ix2 n j)) := by
  rw [val_main_v18_apply, val_main_v17_apply, val_main_cst_5_apply, val_main_v16_apply, val_main_v15_apply,
    val_main_cst_4_apply, val_main_v14_apply, val_main_v13_apply, val_main_cst_3_apply, val_main_v12_apply,
    val_main_cst_2_apply]
  have e : (∑ k : Fin 256, val_main_v11 (F := Ideal) Z P (idx_main_v12 (ix1 n) k))
      = ∑ j : Fin 256, Ideal.div (Ideal.exp (Z (ix2 n j) - rowMax (fun k => Z (ix2 n k))))
          (Ideal.ofBits .f32 0x00000000#32 + ∑ k : Fin 256, Ideal.exp (Z (ix2 n k) - rowMax (fun k => Z (ix2 n k))))
        * P (ix2 n j) :=
    Finset.sum_congr rfl fun k _ => by rw [idx_v12, v11_eq]
  rw [e]
  rfl

/-! ## All rows -/

/-- The rows' indices are the row numbers. -/
def rowEquiv : Fin 262144 ≃ S262144.Idx where
  toFun n := ix1 n
  invFun j := j 0
  left_inv _ := rfl
  right_inv j := (eq_ix1 j).symm

theorem ref_value (Z P : FVec Ideal S262144x256 .f32) :
    Cert.ReferenceIdeal.Read.val_main_v20 (F := Ideal) Z P
      = fun _ => Ideal.div (Ideal.ofBits .f32 0x00000000#32 + ∑ n : Fin 262144, rowR (fun j => Z (ix2 n j)) (fun j => P (ix2 n j))) (Ideal.ofBits .f32 0x48800000#32) := by
  funext i
  have e : (∑ j : S262144.Idx, val_main_v18 (F := Ideal) Z P j)
      = ∑ n : Fin 262144, rowR (fun j => Z (ix2 n j)) (fun j => P (ix2 n j)) :=
    (Equiv.sum_comp rowEquiv (fun j => val_main_v18 (F := Ideal) Z P j)).symm.trans
      (Finset.sum_congr rfl fun n _ => row_eq Z P n)
  rw [val_main_v20_apply, val_main_v19_apply, val_main_cst_6_apply, val_main_cst_7_apply, e]
  rfl

end Cert.Loss.Ref

end
-- ==== Proof.Bridge.lean ====
/-
  The two programs compute the same mean.

  The kernel's scalar result is the sum of two entries of its 16 × 128 output array: entry (0, 0), written at the last
  point of the first run of 32 grid points, and entry (8, 0), written at the last point of the second run. Each is its
  run's total of block sums times 2⁻¹⁸, and the block sum of point s is the sum of the row values of the rows
  4096 s .. 4096 s + 4095 of the two arguments. The reference's scalar result is the sum of all 262144 row values,
  written in its own form, divided by 262144. When every entry of the arguments is a real, each row's two forms agree
  and are a real, and the two ways of taking the mean agree.
-/
import proofs.«125759_j30331059045011_2_alg».proof.Proof.GridValue
import proofs.«125759_j30331059045011_2_alg».proof.Proof.KernelArray
import proofs.«125759_j30331059045011_2_alg».proof.Proof.MeanValue
import proofs.«125759_j30331059045011_2_alg».proof.Proof.RefValue

noncomputable section

open Idealize.ShloMosaic Idealize.ShloMosaic.TcCoe Idealize.SL.Sem Idealize.ShloMosaic.ValueIdx

namespace Cert.Loss.Bridge

open Cert.KernelIdeal Cert.KernelIdeal.Gen Cert.Loss Cert.Loss.Block Cert.Loss.Grid

variable (m : (ℓ : Loc nD τ sig) → Buf (Elt Ideal) ℓ) (ρ : Dev nD → PrngReg)

/-- The kernel's result on core c: the two runs' totals, each times 2⁻¹⁸, added. -/
def result (c : Dev nD) : EReal :=
  (∑ s ∈ Finset.Ico 0 32, ptSumN m c s) * Ideal.ofBits .f32 0x36800000#32
    + (∑ s ∈ Finset.Ico 32 64, ptSumN m c s) * Ideal.ofBits .f32 0x36800000#32

/-- What the output block holds at the last point of point n's run. -/
def blockOut (c : Dev nD) (n : ℕ) : EReal :=
  (∑ s ∈ Finset.Ico (32 * (n / 32)) (n + 1), ptSumN m c s) * Ideal.ofBits .f32 0x36800000#32

/-- The kernel's run: the scalar result holds `result`, the arguments are unchanged. -/
theorem kernel_run :
    θ_run defs (onTc (τ := τ) (main (F := Ideal))) ⟨m, fun _ => 0, ρ⟩ (fun r => ∀ c : Dev nD,
      r.2.mem ((c.tc : Thread nD τ).loc main_v5) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Cert.Loss.Arr.run m ρ (fun c => result m c) fun c => ?_
  rw [(Cert.Loss.Arr.arr_rows m c (blockOut m c) fun t h => out_eq m c t h).1,
    (Cert.Loss.Arr.arr_rows m c (blockOut m c) fun t h => out_eq m c t h).2]
  rfl

/-- The block sum of point s, over the arguments' rows 4096 s .. 4096 s + 4095. -/
theorem ptSumN_rows (c : Dev nD) (s : ℕ) (h : s < 64) :
    ptSumN m c s = ∑ r : Fin 4096,
      rowK (fun j => m ((c.tc : Thread nD τ).loc main_arg0) (ix2 (blkRow ⟨s, h⟩ r) j))
        (fun j => m ((c.tc : Thread nD τ).loc main_arg1) (ix2 (blkRow ⟨s, h⟩ r) j)) := by
  have hN : s < cfg0.N := lt_of_lt_of_eq h N_0.symm
  rw [ptSumN_of_lt m c s hN]
  unfold ptSum blockSum
  refine Finset.sum_congr rfl fun r _ => ?_
  have e0 : (fun j : Fin 256 => iblk m c 0 ⟨s, hN⟩ (ix2 r j))
      = fun j => m ((c.tc : Thread nD τ).loc main_arg0) (ix2 (blkRow ⟨s, h⟩ r) j) :=
    funext fun j => Cert.Loss.Arr.iblk0_apply m c ⟨s, hN⟩ r j (blkRow ⟨s, h⟩ r).isLt
  have e1 : (fun j : Fin 256 => iblk m c 1 ⟨s, hN⟩ (ix2 r j))
      = fun j => m ((c.tc : Thread nD τ).loc main_arg1) (ix2 (blkRow ⟨s, h⟩ r) j) :=
    funext fun j => Cert.Loss.Arr.iblk1_apply m c ⟨s, hN⟩ r j (blkRow ⟨s, h⟩ r).isLt
  rw [e0, e1]

/-- On real arguments the kernel's result is the reference's mean. -/
theorem result_eq (c : Dev nD)
    (hZ : ∀ i, ∃ x : ℝ, m ((c.tc : Thread nD τ).loc main_arg0) i = ((x : ℝ) : EReal))
    (hP : ∀ i, ∃ x : ℝ, m ((c.tc : Thread nD τ).loc main_arg1) i = ((x : ℝ) : EReal)) :
    Ideal.div (Ideal.ofBits .f32 0x00000000#32 + ∑ n : Fin 262144,
        rowR (fun j => m ((c.tc : Thread nD τ).loc main_arg0) (ix2 n j))
          (fun j => m ((c.tc : Thread nD τ).loc main_arg1) (ix2 n j))) (Ideal.ofBits .f32 0x48800000#32)
      = result m c := by
  choose zr hzr using hZ
  choose pr hpr using hP
  have hrow : ∀ n : Fin 262144,
      rowR (fun j => m ((c.tc : Thread nD τ).loc main_arg0) (ix2 n j)) (fun j => m ((c.tc : Thread nD τ).loc main_arg1) (ix2 n j))
        = rowK (fun j => m ((c.tc : Thread nD τ).loc main_arg0) (ix2 n j)) (fun j => m ((c.tc : Thread nD τ).loc main_arg1) (ix2 n j))
      ∧ ∃ v : ℝ, rowK (fun j => m ((c.tc : Thread nD τ).loc main_arg0) (ix2 n j))
          (fun j => m ((c.tc : Thread nD τ).loc main_arg1) (ix2 n j)) = ((v : ℝ) : EReal) :=
    fun n => rowR_eq_rowK _ _ (fun j => zr (ix2 n j)) (fun j => pr (ix2 n j)) (fun j => hzr _) (fun j => hpr _)
  choose V hV using fun n => (hrow n).2
  have hsum : (∑ n : Fin 262144,
        rowR (fun j => m ((c.tc : Thread nD τ).loc main_arg0) (ix2 n j))
          (fun j => m ((c.tc : Thread nD τ).loc main_arg1) (ix2 n j)))
      = ∑ n : Fin 262144, ((V n : ℝ) : EReal) :=
    Finset.sum_congr rfl fun n _ => (hrow n).1.trans (hV n)
  rw [hsum]
  refine (mean_eq V (ptSumN m c) fun s h => ?_).symm
  rw [ptSumN_rows m c s h]
  exact Finset.sum_congr rfl fun r _ => hV _

end Cert.Loss.Bridge

end
-- ==== Proof.Finite.lean ====
/-
  Finiteness of the inputs.

  The precondition takes, entry by entry, the absolute value |x| = max x (-x) of both arrays, compares it with +∞,
  and takes the conjunction of all the comparisons. On the extended reals max x (-x) < +∞ rules out x = +∞ (the maximum
  is then +∞) and x = -∞ (then -x is +∞): what remains is a real number. So under the precondition every entry of
  both arrays is a real.
-/
import proofs.«125759_j30331059045011_2_alg».proof.Pre_finite_inputs
import Idealize.ShloMosaic.PureOps.Ideal
import Idealize.ShloMosaic.Lib.ReduceAll
import Idealize.ShloMosaic.Lib.ValueIdx

noncomputable section

namespace Cert.Loss.Finite

open Idealize.ShloMosaic

/-- The word the precondition compares against denotes +∞. -/
theorem ofBits_posInf : Ideal.ofBits .f32 0x7F800000#32 = ⊤ := by
  simp [Ideal.ofBits, Ideal.ieee]

/-- The scalar shape has one index. -/
instance : Subsingleton Cert.Pre_finite_inputs.S_.Idx := ⟨fun a b => funext fun d => d.elim0⟩

/-- A one-bit word made from a truth value is 1 exactly when the value is true. -/
theorem ofBool_eq_one {b : Bool} : BitVec.ofBool b = 1#1 ↔ b = true := by cases b <;> decide

/-- An extended real whose absolute value is below +∞ is a real. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The same, from the comparison as the precondition spells it. -/
theorem real_of_cmp (x : EReal)
    (h : Ideal.cmp .olt (max x (-x)) (Ideal.ofBits .f32 0x7F800000#32) = 1#1) : ∃ r : ℝ, x = ((r : ℝ) : EReal) := by
  rw [ofBits_posInf] at h
  have h' : decide (max x (-x) < ⊤) = true := ofBool_eq_one.1 h
  exact real_of_abs_lt_top x (of_decide_eq_true h')

theorem real_of_pre [Cert.Pre_finite_inputs.Facts] (Z P : FVec Ideal Cert.Pre_finite_inputs.S262144x256 .f32)
    (h : Cert.Pre_finite_inputs.fn (F := Ideal) Z P = fun _ => 1#1) :
    (∀ i, ∃ r : ℝ, Z i = ((r : ℝ) : EReal)) ∧ (∀ i, ∃ r : ℝ, P i = ((r : ℝ) : EReal)) := by
  have h0 := congrFun h ValueIdx.ix0
  dsimp only [Cert.Pre_finite_inputs.fn] at h0
  obtain ⟨hZ, hP⟩ := IntOp.andi_eq_one.1 h0
  refine ⟨fun i => ?_, fun i => ?_⟩
  · exact real_of_cmp (Z i) (Host.reduce_andi_all _ _ _ _ _ hZ i)
  · exact real_of_cmp (P i) (Host.reduce_andi_all _ _ _ _ _ hP i)

end Cert.Loss.Finite

end
-- ==== Proof.lean ====
/-
  A mean of 262144 row losses, computed by a kernel and by a plain reference: the two agree on finite inputs.

  For logits z and weights p (262144 rows of 256 entries) the loss of a row is (1 - sqrt t) / (1/2), where t is the
  softmax of the row's logits paired with the row's weights. The reference forms the softmax weights first
  (exp (z_j - M) / S with M the row's largest logit and S the sum of the shifted exponentials), sums them against p,
  takes the power 1/2, and at the end divides the sum of all row losses by 262144. The kernel sums the shifted
  exponentials against p first and divides once by S, clamps the quotient below by 0 before the square root, sums
  the row losses block by block (64 blocks of 4096 rows, two runs of 32 blocks each kept in a one-cell
  accumulator), multiplies each run's total by 2⁻¹⁸, and adds the two products.

  Over the extended reals these are the same number when every input entry is finite:
    * M, the exponentials, S > 0 and the sums are then reals, so dividing each term by S or the sum once is the same;
    * on the reals t ^ (1/2) = sqrt (max t 0) for every t, both sides being 0 for t < 0;
    * each row loss is a real, so the grouping of the sum does not matter, and multiplying two totals by
      2⁻¹⁸ = 1/262144 and adding is dividing the whole sum by 262144.
  The three frames are the generated ones (the reference's is its generated run with the result dropped), and the
  kernel's idealization rewrote nothing.
-/
import proofs.«125759_j30331059045011_2_alg».proof.Defs
import proofs.«125759_j30331059045011_2_alg».proof.Proof.Gen.Kernel
import proofs.«125759_j30331059045011_2_alg».proof.Proof.Gen.Kernel.Skeleton
import proofs.«125759_j30331059045011_2_alg».proof.Proof.Gen.Kernel.Launch
import proofs.«125759_j30331059045011_2_alg».proof.Proof.Gen.Kernel.Points
import proofs.«125759_j30331059045011_2_alg».proof.Proof.Gen.Kernel.Frame
import proofs.«125759_j30331059045011_2_alg».proof.Proof.Gen.KernelIdeal
import proofs.«125759_j30331059045011_2_alg».proof.Proof.Gen.KernelIdeal.Skeleton
import proofs.«125759_j30331059045011_2_alg».proof.Proof.Gen.KernelIdeal.Launch
import proofs.«125759_j30331059045011_2_alg».proof.Proof.Gen.KernelIdeal.Points
import proofs.«125759_j30331059045011_2_alg».proof.Proof.Gen.KernelIdeal.Frame
import proofs.«125759_j30331059045011_2_alg».proof.Proof.Gen.ReferenceIdeal
import proofs.«125759_j30331059045011_2_alg».proof.Proof.Gen.ReferenceIdeal.Run
import proofs.«125759_j30331059045011_2_alg».proof.Proof.Gen.ReferenceIdeal.Read
import proofs.«125759_j30331059045011_2_alg».proof.Proof.Gen.Pre_finite_inputs
import proofs.«125759_j30331059045011_2_alg».proof.Proof.Bridge
import proofs.«125759_j30331059045011_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, both finite: the kernel's scalar ends at the two runs' totals
    times 2⁻¹⁸, added; the reference's at the sum of the row losses divided by 262144; the same number. -/
theorem algebraic : Cert.algebraic_KernelIdeal_ReferenceIdeal := by
  intro m ρ m' ρ' hpre hagree
  refine ⟨fun c => fun _ => Cert.Loss.Bridge.result m c, Cert.Loss.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v20_eq, Cert.Loss.Ref.ref_value]
  funext _
  obtain ⟨hZ, hP⟩ := Cert.Loss.Finite.real_of_pre _ _ (hpre c)
  exact Cert.Loss.Bridge.result_eq m c hZ hP

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
